-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S16x4096 .f32) (main_arg4 : FVec F S4096x16 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S1x4096, .f32⟩
  | .hbm, ⟨7, _⟩ => ⟨S16384x4096, .bf16⟩
  | .hbm, ⟨8, _⟩ => ⟨S4096x4096, .bf16⟩
  | .hbm, ⟨9, _⟩ => ⟨S16x4096, .bf16⟩
  | .hbm, ⟨10, _⟩ => ⟨S16384x4096, .f32⟩
  | .hbm, ⟨11, _⟩ => ⟨S8x2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S16x512, .bf16⟩
  | .local _ .vmem, ⟨5, _⟩ => ⟨S16x512, .bf16⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x2048x4096_S16384x4096 : S8x2048x4096.ShapeCasts S16384x4096
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .bf16 = 32 ∨ (Rect.block (s := S16384x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .bf16 = 32 ∨ (Rect.block (s := S16x4096) S16x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S8x2048x16 : Shape := ⟨3, ![8, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | .hbm, ⟨9, _⟩ => ⟨S8x2048x16, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []
  dot_S8x2048x4096_S16x4096_S8x2048x16_2_1_01_0_n_n_wf : DotDims.WF S8x2048x4096 S16x4096 S8x2048x16 [2] [1] [0, 1] [0] [] []
  dot_S8x2048x16_S4096x16_S8x2048x4096_2_1_01_0_n_n_wf : DotDims.WF S8x2048x16 S4096x16 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S8x2048x4096_S16x4096_S8x2048x16_2_1_01_0_n_n : DotDims S8x2048x4096 S16x4096 S8x2048x16 where
  lhsContracting := [2]
  rhsContracting := [1]
  lhsNonContracting := [0, 1]
  rhsNonContracting := [0]
  lhsBatch := []
  rhsBatch := []
  wf := dot_S8x2048x4096_S16x4096_S8x2048x16_2_1_01_0_n_n_wf
def dot_S8x2048x16_S4096x16_S8x2048x4096_2_1_01_0_n_n : DotDims S8x2048x16 S4096x16 S8x2048x4096 where
  lhsContracting := [2]
  rhsContracting := [1]
  lhsNonContracting := [0, 1]
  rhsNonContracting := [0]
  lhsBatch := []
  rhsBatch := []
  wf := dot_S8x2048x16_S4096x16_S8x2048x4096_2_1_01_0_n_n_wf

class Facts : Prop extends Facts₀ where

variable [Facts]
-- ==== Proof.Pieces.lean ====
/-
  What the kernel body leaves behind in each of its three control cases, as values.

  A grid point's body does one of three things, by its position k along the inner-dimension axis.  At k = 0 it first
  fills both accumulators with zeros and then adds this block's products to them; at 0 < k < 7 it adds this block's
  products to what the previous point left; at k = 7 it does the same and then writes the output block from the
  accumulators it has just updated.  Each lemma below reads one buffer's final contents in one case as the stored value
  (a pure function of the blocks loaded and of what the previous point left), for any float instance.
-/
import proofs.«150471_j58033598104232_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- First step, base accumulator: the zeros just stored, plus this block's products x·wᵀ. -/
theorem first_base (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .bf16) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : cond0_0 i) (hc1 : ¬cond0_1 i)
    (x0 : Vec F S1024x512 .bf16) (x1 : Vec F S1024x512 .bf16) (x2 : Vec F S16x512 .bf16) (x3 : Vec F S1024x16 .f32) (x4 : Vec F S1x1024 .f32) :
    sout0_A_0 c i a3 h3 a4 h4 a5 h5 a6 h6 a7 h7 a8 h8 a9 h9 a10 h10 hc0 hc1 x0 x1 x2 x3 x4 = k0_pay3 k0_pay1 x0 x1 := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h7.read_unread, h9.read_unread,
    h10.read_unread, View.ld_unit_zero (S := S1024x512) hz, View.ld_unit_zero (S := S16x512) hz, View.ld_unit_zero (S := S1024x16) hz,
    View.ld_unit_zero (S := S1024x1024) hz, View.ld_unit_zero (S := S1x1024) hz]

/-- First step, low-rank accumulator: the zeros just stored, plus this block's products x·aᵀ. -/
theorem first_low (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .bf16) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : cond0_0 i) (hc1 : ¬cond0_1 i)
    (x0 : Vec F S1024x512 .bf16) (x1 : Vec F S1024x512 .bf16) (x2 : Vec F S16x512 .bf16) (x3 : Vec F S1024x16 .f32) (x4 : Vec F S1x1024 .f32) :
    sout0_A_1 c i a3 h3 a4 h4 a5 h5 a6 h6 a7 h7 a8 h8 a9 h9 a10 h10 hc0 hc1 x0 x1 x2 x3 x4 = k0_pay4 k0_pay2 x0 x2 := by
  unfold sout0_A_1
  rw [View.read_writes_eq_canon _ _ _ (scover0_A_1 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, h3.read_unread, h4.read_unread, h5.read_unread, h6.read_unread, h7.read_unread, h9.read_unread,
    h10.read_unread, View.ld_unit_zero (S := S1024x512) hz, View.ld_unit_zero (S := S16x512) hz, View.ld_unit_zero (S := S1024x16) hz,
    View.ld_unit_zero (S := S1024x1024) hz, View.ld_unit_zero (S := S1x1024) hz]

/-- A middle step, base accumulator: what the previous point left, plus this block's products. -/
theorem middle_base (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .bf16) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : ¬cond0_1 i)
    (x0 : Vec F S1024x512 .bf16) (x1 : Vec F S1024x512 .bf16) (x2 : Vec F S16x512 .bf16) (x3 : Vec F S1024x16 .f32) (x4 : Vec F S1x1024 .f32) (xs0 : Vec F S1024x1024 .f32) (xs1 : Vec F S1024x16 .f32) :
    sout0_B_0 c i a3 h3 a4 h4 a5 h5 a6 h6 a7 h7 a8 h8 a9 h9 a10 h10 hc0 hc1 x0 x1 x2 x3 x4 xs0 xs1 = k0_pay3 xs0 x0 x1 := by
  unfold sout0_B_0
  rw [View.read_writes_eq_canon _ _ _ (scover0_B_0 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz]
  simp only [View.readAt_eq_ld, h3.read_unread, h4.read_unread, h5.read_unread, h6.read_unread, h7.read_unread, h9.read_unread,
    h10.read_unread, View.ld_unit_zero (S := S1024x512) hz, View.ld_unit_zero (S := S16x512) hz, View.ld_unit_zero (S := S1024x16) hz,
    View.ld_unit_zero (S := S1024x1024) hz, View.ld_unit_zero (S := S1x1024) hz]

/-- A middle step, low-rank accumulator: what the previous point left, plus this block's products. -/
theorem middle_low (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .bf16) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : ¬cond0_1 i)
    (x0 : Vec F S1024x512 .bf16) (x1 : Vec F S1024x512 .bf16) (x2 : Vec F S16x512 .bf16) (x3 : Vec F S1024x16 .f32) (x4 : Vec F S1x1024 .f32) (xs0 : Vec F S1024x1024 .f32) (xs1 : Vec F S1024x16 .f32) :
    sout0_B_1 c i a3 h3 a4 h4 a5 h5 a6 h6 a7 h7 a8 h8 a9 h9 a10 h10 hc0 hc1 x0 x1 x2 x3 x4 xs0 xs1 = k0_pay4 xs1 x0 x2 := by
  unfold sout0_B_1
  rw [View.read_writes_eq_canon _ _ _ (scover0_B_1 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz]
  simp only [View.readAt_eq_ld, h3.read_unread, h4.read_unread, h5.read_unread, h6.read_unread, h7.read_unread, h9.read_unread,
    h10.read_unread, View.ld_unit_zero (S := S1024x512) hz, View.ld_unit_zero (S := S16x512) hz, View.ld_unit_zero (S := S1024x16) hz,
    View.ld_unit_zero (S := S1024x1024) hz, View.ld_unit_zero (S := S1x1024) hz]

/-- The last step, base accumulator: what the previous point left, plus this block's products. -/
theorem last_base (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .bf16) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i)
    (x0 : Vec F S1024x512 .bf16) (x1 : Vec F S1024x512 .bf16) (x2 : Vec F S16x512 .bf16) (x3 : Vec F S1024x16 .f32) (x4 : Vec F S1x1024 .f32) (xs0 : Vec F S1024x1024 .f32) (xs1 : Vec F S1024x16 .f32) :
    sout0_C_0 c i a3 h3 a4 h4 a5 h5 a6 h6 a7 h7 a8 h8 a9 h9 a10 h10 hc0 hc1 x0 x1 x2 x3 x4 xs0 xs1 = k0_pay3 xs0 x0 x1 := by
  unfold sout0_C_0
  rw [View.read_writes_eq_canon _ _ _ (scover0_C_0 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h9.read_unread,
    h10.read_unread, View.ld_unit_zero (S := S1024x512) hz, View.ld_unit_zero (S := S16x512) hz, View.ld_unit_zero (S := S1024x16) hz,
    View.ld_unit_zero (S := S1024x1024) hz, View.ld_unit_zero (S := S1x1024) hz]

/-- The last step, low-rank accumulator: what the previous point left, plus this block's products. -/
theorem last_low (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .bf16) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i)
    (x0 : Vec F S1024x512 .bf16) (x1 : Vec F S1024x512 .bf16) (x2 : Vec F S16x512 .bf16) (x3 : Vec F S1024x16 .f32) (x4 : Vec F S1x1024 .f32) (xs0 : Vec F S1024x1024 .f32) (xs1 : Vec F S1024x16 .f32) :
    sout0_C_1 c i a3 h3 a4 h4 a5 h5 a6 h6 a7 h7 a8 h8 a9 h9 a10 h10 hc0 hc1 x0 x1 x2 x3 x4 xs0 xs1 = k0_pay4 xs1 x0 x2 := by
  unfold sout0_C_1
  rw [View.read_writes_eq_canon _ _ _ (scover0_C_1 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h9.read_unread,
    h10.read_unread, View.ld_unit_zero (S := S1024x512) hz, View.ld_unit_zero (S := S16x512) hz, View.ld_unit_zero (S := S1024x16) hz,
    View.ld_unit_zero (S := S1024x1024) hz, View.ld_unit_zero (S := S1x1024) hz]

/-- The last step, output block: the epilogue of the two accumulators AS JUST UPDATED at this point, the adapter's second factor and the bias row. -/
theorem last_out (c : Dev nD) (i : grid0.Coords) (a3 : Memref sig .tc .vmem S1024x512 .bf16) (h3 : a3.IsWhole) (a4 : Memref sig .tc .vmem S1024x512 .bf16) (h4 : a4.IsWhole) (a5 : Memref sig .tc .vmem S16x512 .bf16) (h5 : a5.IsWhole) (a6 : Memref sig .tc .vmem S1024x16 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i)
    (x0 : Vec F S1024x512 .bf16) (x1 : Vec F S1024x512 .bf16) (x2 : Vec F S16x512 .bf16) (x3 : Vec F S1024x16 .f32) (x4 : Vec F S1x1024 .f32) (xs0 : Vec F S1024x1024 .f32) (xs1 : Vec F S1024x16 .f32) :
    out0_C_5 c i a3 h3 a4 h4 a5 h5 a6 h6 a7 h7 a8 h8 a9 h9 a10 h10 hc0 hc1 x0 x1 x2 x3 x4 xs0 xs1 = k0_pay5 x3 (k0_pay4 xs1 x0 x2) (k0_pay3 xs0 x0 x1) x4 := by
  unfold out0_C_5
  rw [View.read_writes_eq_canon _ _ _ (cover0_C_5 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz, View.readCov_unit_zero (S := S1024x16) _ hz, View.readCov_unit_zero (S := S1024x1024) _ hz]
  simp only [View.readAt_eq_ld, h3.read_unread, h4.read_unread, h5.read_unread, h6.read_unread, h7.read_unread, h9.read_unread,
    h10.read_unread, View.ld_unit_zero (S := S1024x512) hz, View.ld_unit_zero (S := S16x512) hz, View.ld_unit_zero (S := S1024x16) hz,
    View.ld_unit_zero (S := S1024x1024) hz, View.ld_unit_zero (S := S1x1024) hz]

end Cert.KernelIdeal.Pieces

end
-- ==== Proof.Payloads.lean ====
/-
  The kernel body's five stored values, read at one entry on the extended reals.

  The body stores: a block of zeros into each of its two accumulators at the first step of a row/column tile; the
  running products `acc + x·wᵀ` ([1024, 1024], contracting the 512 columns of the current block) and `acc + x·aᵀ`
  ([1024, 16]); and, at the last step, `(base + bias) + 2·(low·bmᵀ)`.  Every change of float format is the identity on
  the extended reals, a product into a zero accumulator is the plain sum of products, and the bias row [1, 1024] is
  repeated down the 1024 rows.
-/
import proofs.«150471_j58033598104232_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Idealize.ShloMosaic Idealize.ShloMosaic.ValueIdx Cert.KernelIdeal Cert.KernelIdeal.Gen

/-! ## The three products' operand indices: row `p` of the left operand against row `q` of the right, column by column -/

theorem base_lhs0 (j : S1024x1024.Idx) (c : dot_S1024x512_S1024x512_S1024x1024_1_1_0_0_n_n.contr.Idx) : (dot_S1024x512_S1024x512_S1024x1024_1_1_0_0_n_n.lhsIdx j c 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem base_rhs0 (j : S1024x1024.Idx) (c : dot_S1024x512_S1024x512_S1024x1024_1_1_0_0_n_n.contr.Idx) : (dot_S1024x512_S1024x512_S1024x1024_1_1_0_0_n_n.rhsIdx j c 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- x·wᵀ over one block of 512 columns: entry (p, q) pairs x[p, k] with w[q, k]. -/
theorem base_operands (p q : Fin 1024) (k : Fin 512) :
    dot_S1024x512_S1024x512_S1024x1024_1_1_0_0_n_n.lhsIdx (ix2 p q)
        ((contrEquiv1 dot_S1024x512_S1024x512_S1024x1024_1_1_0_0_n_n 512 rfl rfl).symm k) = ix2 p k
    ∧ dot_S1024x512_S1024x512_S1024x1024_1_1_0_0_n_n.rhsIdx (ix2 p q)
        ((contrEquiv1 dot_S1024x512_S1024x512_S1024x1024_1_1_0_0_n_n 512 rfl rfl).symm k) = ix2 q k := by
  have hk := contrEquiv1_symm_val dot_S1024x512_S1024x512_S1024x1024_1_1_0_0_n_n 512 rfl rfl k
  refine ⟨funext fun a => Fin.ext ?_, funext fun a => Fin.ext ?_⟩
  · match a with
    | ⟨0, _⟩ => exact base_lhs0 _ _
    | ⟨1, _⟩ => exact (dot_S1024x512_S1024x512_S1024x1024_1_1_0_0_n_n.lhsIdx_val_of_single rfl _ _).trans hk
  · match a with
    | ⟨0, _⟩ => exact base_rhs0 _ _
    | ⟨1, _⟩ => exact (dot_S1024x512_S1024x512_S1024x1024_1_1_0_0_n_n.rhsIdx_val_of_single rfl _ _).trans hk

theorem low_lhs0 (j : S1024x16.Idx) (c : dot_S1024x512_S16x512_S1024x16_1_1_0_0_n_n.contr.Idx) : (dot_S1024x512_S16x512_S1024x16_1_1_0_0_n_n.lhsIdx j c 0).val = (j 0).val := by
  unfold DotDims.lhsIdx
  rw [dif_neg (show ¬(0 : Fin S1024x512.rank) ∈ dot_S1024x512_S16x512_S1024x16_1_1_0_0_n_n.lhsBatch by decide),
    dif_pos (show (0 : Fin S1024x512.rank) ∈ dot_S1024x512_S16x512_S1024x16_1_1_0_0_n_n.lhsNonContracting by decide)]
  rfl
theorem low_rhs0 (j : S1024x16.Idx) (c : dot_S1024x512_S16x512_S1024x16_1_1_0_0_n_n.contr.Idx) : (dot_S1024x512_S16x512_S1024x16_1_1_0_0_n_n.rhsIdx j c 0).val = (j 1).val := by
  unfold DotDims.rhsIdx
  rw [dif_neg (show ¬(0 : Fin S16x512.rank) ∈ dot_S1024x512_S16x512_S1024x16_1_1_0_0_n_n.rhsBatch by decide),
    dif_pos (show (0 : Fin S16x512.rank) ∈ dot_S1024x512_S16x512_S1024x16_1_1_0_0_n_n.rhsNonContracting by decide)]
  rfl

/-- x·aᵀ over one block of 512 columns: entry (p, r) pairs x[p, k] with a[r, k]. -/
theorem low_operands (p : Fin 1024) (r : Fin 16) (k : Fin 512) :
    dot_S1024x512_S16x512_S1024x16_1_1_0_0_n_n.lhsIdx (ix2 p r)
        ((contrEquiv1 dot_S1024x512_S16x512_S1024x16_1_1_0_0_n_n 512 rfl rfl).symm k) = ix2 p k
    ∧ dot_S1024x512_S16x512_S1024x16_1_1_0_0_n_n.rhsIdx (ix2 p r)
        ((contrEquiv1 dot_S1024x512_S16x512_S1024x16_1_1_0_0_n_n 512 rfl rfl).symm k) = ix2 r k := by
  have hk := contrEquiv1_symm_val dot_S1024x512_S16x512_S1024x16_1_1_0_0_n_n 512 rfl rfl k
  refine ⟨funext fun a => Fin.ext ?_, funext fun a => Fin.ext ?_⟩
  · match a with
    | ⟨0, _⟩ => exact low_lhs0 _ _
    | ⟨1, _⟩ => exact (dot_S1024x512_S16x512_S1024x16_1_1_0_0_n_n.lhsIdx_val_of_single rfl _ _).trans hk
  · match a with
    | ⟨0, _⟩ => exact low_rhs0 _ _
    | ⟨1, _⟩ => exact (dot_S1024x512_S16x512_S1024x16_1_1_0_0_n_n.rhsIdx_val_of_single rfl _ _).trans hk

theorem adapt_lhs0 (j : S1024x1024.Idx) (c : dot_S1024x16_S1024x16_S1024x1024_1_1_0_0_n_n.contr.Idx) : (dot_S1024x16_S1024x16_S1024x1024_1_1_0_0_n_n.lhsIdx j c 0).val = (j 0).val := by
  unfold DotDims.lhsIdx
  rw [dif_neg (show ¬(0 : Fin S1024x16.rank) ∈ dot_S1024x16_S1024x16_S1024x1024_1_1_0_0_n_n.lhsBatch by decide),
    dif_pos (show (0 : Fin S1024x16.rank) ∈ dot_S1024x16_S1024x16_S1024x1024_1_1_0_0_n_n.lhsNonContracting by decide)]
  rfl
theorem adapt_rhs0 (j : S1024x1024.Idx) (c : dot_S1024x16_S1024x16_S1024x1024_1_1_0_0_n_n.contr.Idx) : (dot_S1024x16_S1024x16_S1024x1024_1_1_0_0_n_n.rhsIdx j c 0).val = (j 1).val := by
  unfold DotDims.rhsIdx
  rw [dif_neg (show ¬(0 : Fin S1024x16.rank) ∈ dot_S1024x16_S1024x16_S1024x1024_1_1_0_0_n_n.rhsBatch by decide),
    dif_pos (show (0 : Fin S1024x16.rank) ∈ dot_S1024x16_S1024x16_S1024x1024_1_1_0_0_n_n.rhsNonContracting by decide)]
  rfl

/-- low·bmᵀ over the 16 adapter ranks: entry (p, q) pairs low[p, k] with bm[q, k]. -/
theorem adapt_operands (p q : Fin 1024) (k : Fin 16) :
    dot_S1024x16_S1024x16_S1024x1024_1_1_0_0_n_n.lhsIdx (ix2 p q)
        ((contrEquiv1 dot_S1024x16_S1024x16_S1024x1024_1_1_0_0_n_n 16 rfl rfl).symm k) = ix2 p k
    ∧ dot_S1024x16_S1024x16_S1024x1024_1_1_0_0_n_n.rhsIdx (ix2 p q)
        ((contrEquiv1 dot_S1024x16_S1024x16_S1024x1024_1_1_0_0_n_n 16 rfl rfl).symm k) = ix2 q k := by
  have hk := contrEquiv1_symm_val dot_S1024x16_S1024x16_S1024x1024_1_1_0_0_n_n 16 rfl rfl k
  refine ⟨funext fun a => Fin.ext ?_, funext fun a => Fin.ext ?_⟩
  · match a with
    | ⟨0, _⟩ => exact adapt_lhs0 _ _
    | ⟨1, _⟩ => exact (dot_S1024x16_S1024x16_S1024x1024_1_1_0_0_n_n.lhsIdx_val_of_single rfl _ _).trans hk
  · match a with
    | ⟨0, _⟩ => exact adapt_rhs0 _ _
    | ⟨1, _⟩ => exact (dot_S1024x16_S1024x16_S1024x1024_1_1_0_0_n_n.rhsIdx_val_of_single rfl _ _).trans hk

/-! ## The stored values at an entry -/

/-- The block of zeros stored into the [1024, 1024] accumulator is `0` everywhere. -/
theorem zeros_base_apply (i : S1024x1024.Idx) : k0_pay1 (F := Ideal) i = 0 := by
  unfold k0_pay1
  exact (congrFun (shapeCast_self _ _) i).trans Ideal.ofBits_zero_f32

/-- The block of zeros stored into the [1024, 16] accumulator is `0` everywhere. -/
theorem zeros_low_apply (i : S1024x16.Idx) : k0_pay2 (F := Ideal) i = 0 := by
  unfold k0_pay2
  exact (congrFun (shapeCast_self _ _) i).trans Ideal.ofBits_zero_f32

/-- One step of the base product: the accumulator's entry plus the 512 products of this column block. -/
theorem base_step_apply (acc : Vec Ideal S1024x1024 .f32) (x w : Vec Ideal S1024x512 .bf16) (p q : Fin 1024) :
    k0_pay3 acc x w (ix2 p q) = acc (ix2 p q) + ∑ k : Fin 512, x (ix2 p k) * w (ix2 q k) := by
  unfold k0_pay3
  simp only [shapeCast_self, matmul]
  rw [addf_apply, Ideal.matmul_constant_zero_apply,
    ← Equiv.sum_comp (contrEquiv1 dot_S1024x512_S1024x512_S1024x1024_1_1_0_0_n_n 512 rfl rfl).symm]
  refine congrArg (acc (ix2 p q) + ·) (Finset.sum_congr rfl fun k _ => ?_)
  rw [(base_operands p q k).1, (base_operands p q k).2]

/-- One step of the low-rank projection: the accumulator's entry plus the 512 products of this column block. -/
theorem low_step_apply (acc : Vec Ideal S1024x16 .f32) (x : Vec Ideal S1024x512 .bf16) (a : Vec Ideal S16x512 .bf16)
    (p : Fin 1024) (r : Fin 16) :
    k0_pay4 acc x a (ix2 p r) = acc (ix2 p r) + ∑ k : Fin 512, x (ix2 p k) * a (ix2 r k) := by
  unfold k0_pay4
  simp only [shapeCast_self, matmul]
  rw [addf_apply, Ideal.matmul_constant_zero_apply,
    ← Equiv.sum_comp (contrEquiv1 dot_S1024x512_S16x512_S1024x16_1_1_0_0_n_n 512 rfl rfl).symm]
  refine congrArg (acc (ix2 p r) + ·) (Finset.sum_congr rfl fun k _ => ?_)
  rw [(low_operands p r k).1, (low_operands p r k).2]

/-- The last step's output block: (base + bias) + 2·Σ_r low[p, r]·bm[q, r]. -/
theorem epilogue_apply (bm low : Vec Ideal S1024x16 .f32) (base : Vec Ideal S1024x1024 .f32) (bias : Vec Ideal S1x1024 .f32)
    (p q : Fin 1024) :
    k0_pay5 bm low base bias (ix2 p q)
      = (base (ix2 p q) + bias (ix2 (0 : Fin 1) q))
        + Ideal.ofBits .f32 0x40000000#32 * ∑ r : Fin 16, low (ix2 p r) * bm (ix2 q r) := by
  unfold k0_pay5
  simp only [shapeCast_self, matmul]
  rw [addf_apply, addf_apply, mulf_apply, broadcastTo_1b_ab_apply, Ideal.matmul_constant_zero_apply,
    ← Equiv.sum_comp (contrEquiv1 dot_S1024x16_S1024x16_S1024x1024_1_1_0_0_n_n 16 rfl rfl).symm]
  refine congrArg (fun z => (base (ix2 p q) + bias (ix2 (0 : Fin 1) q)) + Ideal.ofBits .f32 0x40000000#32 * z)
    (Finset.sum_congr rfl fun r _ => ?_)
  rw [(adapt_operands p q r).1, (adapt_operands p q r).2]
  rfl

end Cert.KernelIdeal.Payloads

end
-- ==== Proof.BlockSum.lean ====
/-
  The grid's arithmetic: which rows, columns and inner-dimension block a grid point works on, and the regrouping of a
  sum of 4096 terms as eight consecutive runs of 512.

  The grid has 16 × 4 × 8 points, numbered n = (i·4 + j)·8 + k: point n works on rows 1024·i … 1024·i + 1023 of the
  flattened input, on output columns 1024·j … 1024·j + 1023, and on the inner-dimension columns 512·k … 512·k + 511.
  The kernel accumulates its contractions over the inner dimension block by block along k, while the reference contracts
  all 4096 columns at once.  On the extended reals addition is commutative and associative (with no exception at the
  infinities), so the two arrangements of the same 4096 summands agree; nothing about finiteness is needed.
-/
import Mathlib.Data.EReal.Basic
import Mathlib.Algebra.BigOperators.Fin
import Mathlib.Logic.Equiv.Fin.Basic

open scoped BigOperators

namespace Cert.LoraBlocks

/-- Row `p` of point `n`'s row tile, in the flattened [16384, ·] layout. -/
def tileRow (n : ℕ) (p : Fin 1024) : Fin 16384 := ⟨n / 32 % 16 * 1024 + p.val, by omega⟩
/-- Column `q` of point `n`'s output-column tile. -/
def tileCol (n : ℕ) (q : Fin 1024) : Fin 4096 := ⟨n / 8 % 4 * 1024 + q.val, by omega⟩
/-- Column `k` of point `n`'s inner-dimension block. -/
def blockCol (n : ℕ) (k : Fin 512) : Fin 4096 := ⟨n % 8 * 512 + k.val, by omega⟩

@[simp] theorem tileRow_val (n : ℕ) (p : Fin 1024) : (tileRow n p).val = n / 32 % 16 * 1024 + p.val := rfl
@[simp] theorem tileCol_val (n : ℕ) (q : Fin 1024) : (tileCol n q).val = n / 8 % 4 * 1024 + q.val := rfl
@[simp] theorem blockCol_val (n : ℕ) (k : Fin 512) : (blockCol n k).val = n % 8 * 512 + k.val := rfl

/-- The eight points 8u, …, 8u + 7 of one run along k share their row tile … -/
theorem tileRow_run (u s : ℕ) (hs : s < 8) (p : Fin 1024) : tileRow (8 * u + s) p = tileRow (8 * u + 7) p :=
  Fin.ext (by simp only [tileRow_val]; omega)
/-- … and their output-column tile. -/
theorem tileCol_run (u s : ℕ) (hs : s < 8) (q : Fin 1024) : tileCol (8 * u + s) q = tileCol (8 * u + 7) q :=
  Fin.ext (by simp only [tileCol_val]; omega)

/-- The column `k * 512 + q` of block `k`, offset `q`. -/
def col (k : Fin 8) (q : Fin 512) : Fin 4096 := ⟨k.val * 512 + q.val, by omega⟩

@[simp] theorem col_val (k : Fin 8) (q : Fin 512) : (col k q).val = k.val * 512 + q.val := rfl

/-- Point 8u + s of a run works on inner-dimension block s. -/
theorem blockCol_run (u : ℕ) (s : Fin 8) (k : Fin 512) : blockCol (8 * u + s.val) k = col s k :=
  Fin.ext (by simp only [blockCol_val, col_val]; omega)

/-- A sum over the 4096 columns is the sum over the eight blocks of the sums inside each block. -/
theorem sum_cols {M : Type*} [AddCommMonoid M] (f : Fin 4096 → M) :
    ∑ d : Fin 4096, f d = ∑ k : Fin 8, ∑ q : Fin 512, f (col k q) := by
  rw [← Fintype.sum_prod_type' (f := fun k q => f (col k q))]
  refine (Fintype.sum_equiv (finProdFinEquiv (m := 8) (n := 512)) _ _ ?_).symm
  rintro ⟨k, q⟩
  refine congrArg f (Fin.ext ?_)
  simp [finProdFinEquiv, col, Nat.mul_comm, Nat.add_comm]

/-- The same with the blocks named by the eight points of a run: the partial sums the kernel adds up, one per point,
    are together the whole contraction. -/
theorem sum_run {M : Type*} [AddCommMonoid M] (u : ℕ) (f : Fin 4096 → M) :
    ∑ s ∈ Finset.range 8, ∑ k : Fin 512, f (blockCol (8 * u + s) k) = ∑ d : Fin 4096, f d := by
  rw [Finset.sum_range fun s => ∑ k : Fin 512, f (blockCol (8 * u + s) k), sum_cols]
  exact Finset.sum_congr rfl fun s _ => Finset.sum_congr rfl fun k _ => congrArg f (blockCol_run u s k)

/-- The form the accumulators meet: a summand that may depend on the point, but is the same at the eight points of a run. -/
theorem sum_run_const {M : Type*} [AddCommMonoid M] (u : ℕ) (f : ℕ → Fin 4096 → M)
    (hf : ∀ s, s < 8 → f (8 * u + s) = f (8 * u + 7)) :
    ∑ s ∈ Finset.range 8, ∑ k : Fin 512, f (8 * u + s) (blockCol (8 * u + s) k) = ∑ d : Fin 4096, f (8 * u + 7) d := by
  rw [← sum_run u (f (8 * u + 7))]
  exact Finset.sum_congr rfl fun s hs => by rw [hf s (Finset.mem_range.mp hs)]

end Cert.LoraBlocks
-- ==== Proof.Blocks.lean ====
/-
  Where each window's block sits, and what the arrays handed to the kernel hold.

  At grid point t = (i·4 + j)·8 + k the six windows' blocks are: rows 1024·i… and inner columns 512·k… of the flattened
  input; rows 1024·j… and inner columns 512·k… of the base weight; all 16 rows and inner columns 512·k… of the adapter's
  first factor; rows 1024·j… and all 16 columns of its second factor; the one row and columns 1024·j… of the bias; and
  rows 1024·i…, columns 1024·j… of the output.  So an entry of a block is an entry of its array at tile offset plus
  position in the block.  Before the call the host only reshapes ([8, 2048, 4096] to [16384, 4096], [4096] to
  [1, 4096]) and changes float format, which on the extended reals is the identity.
-/
import proofs.«150471_j58033598104232_2_alg».proof.Proof.Gen.KernelIdeal.Frame.Runs
import proofs.«150471_j58033598104232_2_alg».proof.Proof.BlockSum
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.LoraBlocks

variable {F : FTy → Type} [FloatOps F]
variable (m : (ℓ : Loc nD τ sig) → Buf (Elt F) ℓ)

/-- The printed index maps, decided over the 512 grid points: each window's block index along each axis. -/
theorem block_index : ∀ t : Fin cfg0.N,
    win0_0.index t (0 : Fin 2) = t.val / 32 % 16 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = 0 ∧ win0_4.index t (1 : Fin 2) = t.val / 8 % 4
    ∧ win0_5.index t (0 : Fin 2) = t.val / 32 % 16 ∧ win0_5.index t (1 : Fin 2) = t.val / 8 % 4 :=
  (by decide +kernel : ∀ t : Fin grid0.N, _)

/-- The input block at point t: entry (p, k) is the flattened input at (tile row p, block column k). -/
theorem x_block (c : Dev nD) (t : Fin cfg0.N) (p : Fin 1024) (k : Fin 512) :
    (iblk m c 0 t : Vec F S1024x512 .bf16) (ix2 p k) = V m c main_v2 (ix2 (tileRow t.val p) (blockCol t.val k)) := by
  obtain ⟨e0, e1, -⟩ := block_index t
  unfold iblk
  rw [View.read_apply]
  show V m c main_v2 _ = V m c main_v2 _
  refine congrArg (V m c main_v2) (funext fun a => Fin.ext ?_)
  match a with
  | ⟨0, _⟩ => show win0_0.index t (0 : Fin 2) * 1024 + 1 * p.val = t.val / 32 % 16 * 1024 + p.val; rw [e0]; omega
  | ⟨1, _⟩ => show win0_0.index t (1 : Fin 2) * 512 + 1 * k.val = t.val % 8 * 512 + k.val; rw [e1]; omega

/-- The base weight's block at point t: entry (q, k) is the weight at (tile column q, block column k). -/
theorem w_block (c : Dev nD) (t : Fin cfg0.N) (q : Fin 1024) (k : Fin 512) :
    (iblk m c 1 t : Vec F S1024x512 .bf16) (ix2 q k) = V m c main_v3 (ix2 (tileCol t.val q) (blockCol t.val k)) := by
  obtain ⟨-, -, e0, e1, -⟩ := block_index t
  unfold iblk
  rw [View.read_apply]
  show V m c main_v3 _ = V m c main_v3 _
  refine congrArg (V m c main_v3) (funext fun a => Fin.ext ?_)
  match a with
  | ⟨0, _⟩ => show win0_1.index t (0 : Fin 2) * 1024 + 1 * q.val = t.val / 8 % 4 * 1024 + q.val; rw [e0]; omega
  | ⟨1, _⟩ => show win0_1.index t (1 : Fin 2) * 512 + 1 * k.val = t.val % 8 * 512 + k.val; rw [e1]; omega

/-- The adapter's first factor's block at point t: entry (r, k) is that factor at (r, block column k). -/
theorem a_block (c : Dev nD) (t : Fin cfg0.N) (r : Fin 16) (k : Fin 512) :
    (iblk m c 2 t : Vec F S16x512 .bf16) (ix2 r k) = V m c main_v4 (ix2 r (blockCol t.val k)) := by
  obtain ⟨-, -, -, -, e0, e1, -⟩ := block_index t
  unfold iblk
  rw [View.read_apply]
  show V m c main_v4 _ = V m c main_v4 _
  refine congrArg (V m c main_v4) (funext fun a => Fin.ext ?_)
  match a with
  | ⟨0, _⟩ => show win0_2.index t (0 : Fin 2) * 16 + 1 * r.val = r.val; rw [e0]; omega
  | ⟨1, _⟩ => show win0_2.index t (1 : Fin 2) * 512 + 1 * k.val = t.val % 8 * 512 + k.val; rw [e1]; omega

/-- The adapter's second factor's block at point t: entry (q, r) is that factor at (tile column q, r). -/
theorem bm_block (c : Dev nD) (t : Fin cfg0.N) (q : Fin 1024) (r : Fin 16) :
    (iblk m c 3 t : Vec F S1024x16 .f32) (ix2 q r) = V m c main_arg4 (ix2 (tileCol t.val q) r) := by
  obtain ⟨-, -, -, -, -, -, e0, e1, -⟩ := block_index t
  unfold iblk
  rw [View.read_apply]
  show V m c main_arg4 _ = V m c main_arg4 _
  refine congrArg (V m c main_arg4) (funext fun a => Fin.ext ?_)
  match a with
  | ⟨0, _⟩ => show win0_3.index t (0 : Fin 2) * 1024 + 1 * q.val = t.val / 8 % 4 * 1024 + q.val; rw [e0]; omega
  | ⟨1, _⟩ => show win0_3.index t (1 : Fin 2) * 16 + 1 * r.val = r.val; rw [e1]; omega

/-- The bias row's block at point t: entry (0, q) is the bias row at (0, tile column q). -/
theorem bias_block (c : Dev nD) (t : Fin cfg0.N) (q : Fin 1024) :
    (iblk m c 4 t : Vec F S1x1024 .f32) (ix2 (0 : Fin 1) q) = V m c main_v1 (ix2 (0 : Fin 1) (tileCol t.val q)) := by
  obtain ⟨-, -, -, -, -, -, -, -, e0, e1, -⟩ := block_index t
  unfold iblk
  rw [View.read_apply]
  show V m c main_v1 _ = V m c main_v1 _
  refine congrArg (V m c main_v1) (funext fun a => Fin.ext ?_)
  match a with
  | ⟨0, _⟩ => show win0_4.index t (0 : Fin 2) * 1 + 1 * 0 = 0; rw [e0]
  | ⟨1, _⟩ => show win0_4.index t (1 : Fin 2) * 1024 + 1 * q.val = t.val / 8 % 4 * 1024 + q.val; rw [e1]; omega

/-! ## The arrays the region finds: the host's reshapes and format changes of the arguments -/

/-- The flattened input handed to the kernel. -/
theorem x_array (c : Dev nD) : (V m c main_v2 : S16384x4096.Idx → Elt F .bf16)
    = truncf .bf16 (shapeCast S16384x4096 (m ((c : Thread nD τ).loc main_arg0)) shapeCasts_S8x2048x4096_S16384x4096) bitsLt_bf16_f32 := by
  show StableHlo.after hostOps0 (fun b => m (c, b)) (Proc.devRef .tc main_v2) = _
  after_results
  rfl

/-- The base weight handed to the kernel. -/
theorem w_array (c : Dev nD) : (V m c main_v3 : S4096x4096.Idx → Elt F .bf16)
    = truncf .bf16 (m ((c : Thread nD τ).loc main_arg1)) bitsLt_bf16_f32 := by
  show StableHlo.after hostOps0 (fun b => m (c, b)) (Proc.devRef .tc main_v3) = _
  after_results

/-- The adapter's first factor handed to the kernel. -/
theorem a_array (c : Dev nD) : (V m c main_v4 : S16x4096.Idx → Elt F .bf16)
    = truncf .bf16 (m ((c : Thread nD τ).loc main_arg3)) bitsLt_bf16_f32 := by
  show StableHlo.after hostOps0 (fun b => m (c, b)) (Proc.devRef .tc main_v4) = _
  after_results

/-- The bias, as the one row handed to the kernel. -/
theorem bias_array (c : Dev nD) : (V m c main_v1 : S1x4096.Idx → Elt F .f32)
    = shapeCast S1x4096 (m ((c : Thread nD τ).loc main_arg2)) shapeCasts_S4096_S1x4096 := by
  show StableHlo.after hostOps0 (fun b => m (c, b)) (Proc.devRef .tc main_v1) = _
  after_results
  rfl

end Cert.KernelIdeal.Blocks

end
-- ==== Proof.Spec.lean ====
/-
  The function both programs compute, stated once.

  With `x` an [8, 2048, 4096] array, `w` [4096, 4096], `bias` [4096], `a` [16, 4096] and `bm` [4096, 16], the result at
  (b, s, n) is

      (Σ_d x[b,s,d]·w[n,d] + bias[n]) + 2 · Σ_r (Σ_d x[b,s,d]·a[r,d]) · bm[n,r]

  on the extended reals, `2` being the value of the float word 0x40000000 (the same word in both programs, so it is never
  evaluated).  The kernel works on the rows flattened to m = 2048·b + s; `rows` is the same formula over that
  [16384, 4096] layout, with the bias laid out as one row [1, 4096].
-/
import Idealize.ShloMosaic.PureOps.Ideal
import Idealize.ShloMosaic.Lib.ValueIdx

noncomputable section

namespace Cert.LoraSpec

open Idealize.ShloMosaic Idealize.ShloMosaic.ValueIdx

/-- The scale factor's float word, read on the extended reals. -/
abbrev scale : EReal := Ideal.ofBits .f32 0x40000000#32

/-- The result over the flattened rows: entry (m, n). -/
def rows (x2 : (⟨2, ![16384, 4096]⟩ : Shape).Idx → EReal) (w : (⟨2, ![4096, 4096]⟩ : Shape).Idx → EReal)
    (a : (⟨2, ![16, 4096]⟩ : Shape).Idx → EReal) (bm : (⟨2, ![4096, 16]⟩ : Shape).Idx → EReal)
    (bias2 : (⟨2, ![1, 4096]⟩ : Shape).Idx → EReal) (r : Fin 16384) (n : Fin 4096) : EReal :=
  (∑ d : Fin 4096, x2 (ix2 r d) * w (ix2 n d) + bias2 (ix2 (0 : Fin 1) n))
    + scale * ∑ k : Fin 16, (∑ d : Fin 4096, x2 (ix2 r d) * a (ix2 k d)) * bm (ix2 n k)

/-- The result over (batch, sequence, feature): entry (b, s, n). -/
def result (x : (⟨3, ![8, 2048, 4096]⟩ : Shape).Idx → EReal) (w : (⟨2, ![4096, 4096]⟩ : Shape).Idx → EReal)
    (bias : (⟨1, ![4096]⟩ : Shape).Idx → EReal) (a : (⟨2, ![16, 4096]⟩ : Shape).Idx → EReal)
    (bm : (⟨2, ![4096, 16]⟩ : Shape).Idx → EReal) (b : Fin 8) (s : Fin 2048) (n : Fin 4096) : EReal :=
  (∑ d : Fin 4096, x (ix3 b s d) * w (ix2 n d) + bias (ix1 n))
    + scale * ∑ k : Fin 16, (∑ d : Fin 4096, x (ix3 b s d) * a (ix2 k d)) * bm (ix2 n k)

end Cert.LoraSpec

end
-- ==== Proof.Accum.lean ====
/-
  The two accumulators along a run of eight grid points, and the output block written at the run's last point.

  The grid's innermost axis is the inner-dimension block k = 0 … 7, so the points 8u, …, 8u + 7 share one row tile and
  one output-column tile.  Along such a run the base accumulator is reset to 0 + (block 0's products) and then gains
  one block's products per point, and likewise the low-rank accumulator; after the eighth point each holds the whole
  contraction over the 4096 input features (a regrouping of one sum: BlockSum).  The output block written there is the
  epilogue of those two totals, which is the specification's formula at the tile's rows and columns.
-/
import proofs.«150471_j58033598104232_2_alg».proof.Proof.Gen.KernelIdeal.Frame
import proofs.«150471_j58033598104232_2_alg».proof.Proof.Pieces
import proofs.«150471_j58033598104232_2_alg».proof.Proof.Payloads
import proofs.«150471_j58033598104232_2_alg».proof.Proof.Blocks
import proofs.«150471_j58033598104232_2_alg».proof.Proof.BlockSum
import proofs.«150471_j58033598104232_2_alg».proof.Proof.Spec
import Idealize.ShloMosaic.Lib.Pipeline.Value

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Pieces Cert.KernelIdeal.Payloads Cert.KernelIdeal.Blocks Cert.LoraBlocks

variable (m : (ℓ : Loc nD τ sig) → Buf (Elt Ideal) ℓ)

/-! ## The recurrences, point by point -/

/-- At a run's first point the base accumulator holds the stored zeros plus that block's products. -/
theorem base_reset (c : Dev nD) (n : ℕ) (h : n < cfg0.N) (h0 : n % 8 = 0) :
    (outsAt0 m c n h).2.1 = k0_pay3 k0_pay1 (iblk m c 0 ⟨n, h⟩) (iblk m c 1 ⟨n, h⟩) := by
  have h1 : ¬(⟨n, h⟩ : Fin cfg0.N).val % 8 = 7 := by dsimp only; omega
  rw [outsAt0_A m c ⟨n, h⟩ h0 h1]
  dsimp only
  exact first_base c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)

/-- At a run's first point the low-rank accumulator holds the stored zeros plus that block's products. -/
theorem low_reset (c : Dev nD) (n : ℕ) (h : n < cfg0.N) (h0 : n % 8 = 0) :
    (outsAt0 m c n h).2.2 = k0_pay4 k0_pay2 (iblk m c 0 ⟨n, h⟩) (iblk m c 2 ⟨n, h⟩) := by
  have h1 : ¬(⟨n, h⟩ : Fin cfg0.N).val % 8 = 7 := by dsimp only; omega
  rw [outsAt0_A m c ⟨n, h⟩ h0 h1]
  dsimp only
  exact first_low c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)

/-- At every later point of a run the base accumulator gains that block's products. -/
theorem base_step (c : Dev nD) (n : ℕ) (h : n + 1 < cfg0.N) (h0 : ¬(n + 1) % 8 = 0) :
    (outsAt0 m c (n + 1) h).2.1
      = k0_pay3 (outsAt0 m c n (Nat.lt_of_succ_lt h)).2.1 (iblk m c 0 ⟨n + 1, h⟩) (iblk m c 1 ⟨n + 1, h⟩) := by
  by_cases h1 : (n + 1) % 8 = 7
  · rw [outsAt0_C m c ⟨n + 1, h⟩ h0 h1]
    dsimp only
    exact last_base c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2.1 (outsAt0 m c n (Nat.lt_of_succ_lt h)).2.2
  · rw [outsAt0_B m c ⟨n + 1, h⟩ h0 h1]
    dsimp only
    exact middle_base c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2.1 (outsAt0 m c n (Nat.lt_of_succ_lt h)).2.2

/-- At every later point of a run the low-rank accumulator gains that block's products. -/
theorem low_step (c : Dev nD) (n : ℕ) (h : n + 1 < cfg0.N) (h0 : ¬(n + 1) % 8 = 0) :
    (outsAt0 m c (n + 1) h).2.2
      = k0_pay4 (outsAt0 m c n (Nat.lt_of_succ_lt h)).2.2 (iblk m c 0 ⟨n + 1, h⟩) (iblk m c 2 ⟨n + 1, h⟩) := by
  by_cases h1 : (n + 1) % 8 = 7
  · rw [outsAt0_C m c ⟨n + 1, h⟩ h0 h1]
    dsimp only
    exact last_low c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2.1 (outsAt0 m c n (Nat.lt_of_succ_lt h)).2.2
  · rw [outsAt0_B m c ⟨n + 1, h⟩ h0 h1]
    dsimp only
    exact middle_low c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2.1 (outsAt0 m c n (Nat.lt_of_succ_lt h)).2.2

/-- At a run's last point the output block is the epilogue of the accumulators as that point leaves them. -/
theorem out_last (c : Dev nD) (t : Fin cfg0.N) (h1 : t.val % 8 = 7) :
    (outsAt0 m c t.val t.isLt).1
      = k0_pay5 (iblk m c 3 t) (outsAt0 m c t.val t.isLt).2.2 (outsAt0 m c t.val t.isLt).2.1 (iblk m c 4 t) := by
  have h0 : ¬t.val % 8 = 0 := by omega
  rw [outsAt0_C m c t h0 h1]
  dsimp only
  rw [last_base c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t),
    last_low c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t)]
  exact last_out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun hh => h0 ((hcond0_0 t).mp hh)) ((hcond0_1 t).mpr h1) (iblk m c 0 t) (iblk m c 1 t) (iblk m c 2 t) (iblk m c 3 t) (iblk m c 4 t) _ _

/-! ## The arrays the region finds, as arrays of extended reals -/

/-- The flattened input. -/
abbrev xArr (c : Dev nD) : (⟨2, ![16384, 4096]⟩ : Shape).Idx → EReal := V m c main_v2
/-- The base weight. -/
abbrev wArr (c : Dev nD) : (⟨2, ![4096, 4096]⟩ : Shape).Idx → EReal := V m c main_v3
/-- The adapter's first factor. -/
abbrev aArr (c : Dev nD) : (⟨2, ![16, 4096]⟩ : Shape).Idx → EReal := V m c main_v4
/-- The adapter's second factor. -/
abbrev bmArr (c : Dev nD) : (⟨2, ![4096, 16]⟩ : Shape).Idx → EReal := V m c main_arg4
/-- The bias, as one row. -/
abbrev biasArr (c : Dev nD) : (⟨2, ![1, 4096]⟩ : Shape).Idx → EReal := V m c main_v1

/-! ## One point's products, as entries of the arrays -/

/-- Point n's contribution to the base product at (p, q), column d of the inner dimension. -/
def baseTerm (c : Dev nD) (n : ℕ) (p q : Fin 1024) (d : Fin 4096) : EReal :=
  xArr m c (ix2 (tileRow n p) d) * wArr m c (ix2 (tileCol n q) d)
/-- Point n's contribution to the low-rank projection at (p, r), column d of the inner dimension. -/
def lowTerm (c : Dev nD) (n : ℕ) (p : Fin 1024) (r : Fin 16) (d : Fin 4096) : EReal :=
  xArr m c (ix2 (tileRow n p) d) * aArr m c (ix2 r d)

/-- One step of the base accumulator at an entry: the previous entry plus the point's 512 products. -/
theorem base_gain (c : Dev nD) (n : ℕ) (h : n < cfg0.N) (acc : Vec Ideal S1024x1024 .f32) (i : S1024x1024.Idx) :
    k0_pay3 acc (iblk m c 0 ⟨n, h⟩) (iblk m c 1 ⟨n, h⟩) i = acc i + ∑ k : Fin 512, baseTerm m c n (i 0) (i 1) (blockCol n k) := by
  obtain ⟨p, q, rfl⟩ : ∃ (p q : Fin 1024), i = ix2 p q := ⟨i 0, i 1, eq_ix2 i⟩
  refine (base_step_apply acc (iblk m c 0 ⟨n, h⟩) (iblk m c 1 ⟨n, h⟩) p q).trans ?_
  refine congrArg (acc (ix2 p q) + ·) (Finset.sum_congr rfl fun k _ => ?_)
  rw [x_block m c ⟨n, h⟩ p k, w_block m c ⟨n, h⟩ q k]
  rfl

/-- One step of the low-rank accumulator at an entry: the previous entry plus the point's 512 products. -/
theorem low_gain (c : Dev nD) (n : ℕ) (h : n < cfg0.N) (acc : Vec Ideal S1024x16 .f32) (i : S1024x16.Idx) :
    k0_pay4 acc (iblk m c 0 ⟨n, h⟩) (iblk m c 2 ⟨n, h⟩) i = acc i + ∑ k : Fin 512, lowTerm m c n (i 0) (i 1) (blockCol n k) := by
  obtain ⟨p, r, rfl⟩ : ∃ (p : Fin 1024) (r : Fin 16), i = ix2 p r := ⟨i 0, i 1, eq_ix2 i⟩
  refine (low_step_apply acc (iblk m c 0 ⟨n, h⟩) (iblk m c 2 ⟨n, h⟩) p r).trans ?_
  refine congrArg (acc (ix2 p r) + ·) (Finset.sum_congr rfl fun k _ => ?_)
  rw [x_block m c ⟨n, h⟩ p k, a_block m c ⟨n, h⟩ r k]
  rfl

/-! ## The totals at a run's last point -/

/-- After the eighth point of a run the base accumulator holds the whole contraction over the 4096 input features. -/
theorem base_total (c : Dev nD) (t : Fin cfg0.N) (h1 : t.val % 8 = 7) (p q : Fin 1024) :
    (outsAt0 m c t.val t.isLt).2.1 (ix2 p q)
      = ∑ d : Fin 4096, xArr m c (ix2 (tileRow t.val p) d) * wArr m c (ix2 (tileCol t.val q) d) := by
  have hN : cfg0.N = 512 := N_0
  have ht := t.isLt
  have h' : 8 * (t.val / 8) + t.val % 8 < cfg0.N := by omega
  have hfold := Pipeline.eq_accAt_of_mod (N := cfg0.N) (fun n h => (outsAt0 m c n h).2.1) 8
    (fun n h => k0_pay3 k0_pay1 (iblk m c 0 ⟨n, h⟩) (iblk m c 1 ⟨n, h⟩))
    (fun n h acc => k0_pay3 acc (iblk m c 0 ⟨n, h⟩) (iblk m c 1 ⟨n, h⟩))
    (fun n h h0 => base_reset m c n h h0) (fun n h h0 => base_step m c n h h0) (by omega) t.val t.isLt h'
  have hsum := Pipeline.accAt_add_apply (N := cfg0.N)
    (fun n h => k0_pay3 k0_pay1 (iblk m c 0 ⟨n, h⟩) (iblk m c 1 ⟨n, h⟩))
    (fun n h acc => k0_pay3 acc (iblk m c 0 ⟨n, h⟩) (iblk m c 1 ⟨n, h⟩))
    (fun _ => (0 : EReal)) (fun n i => ∑ k : Fin 512, baseTerm m c n (i 0) (i 1) (blockCol n k)) (8 * (t.val / 8)) 7
    (fun h i => (base_gain m c (8 * (t.val / 8)) h (k0_pay1 (F := Ideal)) i).trans (congrArg
      (· + ∑ k : Fin 512, baseTerm m c (8 * (t.val / 8)) (i 0) (i 1) (blockCol (8 * (t.val / 8)) k)) (zeros_base_apply i)))
    (fun n h acc i _ _ => base_gain m c n h acc i) (t.val % 8) (by omega) h' (ix2 p q)
  rw [hfold, hsum, zero_add, h1]
  have e : 8 * (t.val / 8) + 7 = t.val := by omega
  have key := sum_run_const (t.val / 8) (fun n d => baseTerm m c n p q d) (fun s hs => by
    funext d; unfold baseTerm; rw [tileRow_run _ s hs, tileCol_run _ s hs])
  rw [e] at key
  exact key

/-- After the eighth point of a run the low-rank accumulator holds the whole projection onto rank r. -/
theorem low_total (c : Dev nD) (t : Fin cfg0.N) (h1 : t.val % 8 = 7) (p : Fin 1024) (r : Fin 16) :
    (outsAt0 m c t.val t.isLt).2.2 (ix2 p r)
      = ∑ d : Fin 4096, xArr m c (ix2 (tileRow t.val p) d) * aArr m c (ix2 r d) := by
  have hN : cfg0.N = 512 := N_0
  have ht := t.isLt
  have h' : 8 * (t.val / 8) + t.val % 8 < cfg0.N := by omega
  have hfold := Pipeline.eq_accAt_of_mod (N := cfg0.N) (fun n h => (outsAt0 m c n h).2.2) 8
    (fun n h => k0_pay4 k0_pay2 (iblk m c 0 ⟨n, h⟩) (iblk m c 2 ⟨n, h⟩))
    (fun n h acc => k0_pay4 acc (iblk m c 0 ⟨n, h⟩) (iblk m c 2 ⟨n, h⟩))
    (fun n h h0 => low_reset m c n h h0) (fun n h h0 => low_step m c n h h0) (by omega) t.val t.isLt h'
  have hsum := Pipeline.accAt_add_apply (N := cfg0.N)
    (fun n h => k0_pay4 k0_pay2 (iblk m c 0 ⟨n, h⟩) (iblk m c 2 ⟨n, h⟩))
    (fun n h acc => k0_pay4 acc (iblk m c 0 ⟨n, h⟩) (iblk m c 2 ⟨n, h⟩))
    (fun _ => (0 : EReal)) (fun n i => ∑ k : Fin 512, lowTerm m c n (i 0) (i 1) (blockCol n k)) (8 * (t.val / 8)) 7
    (fun h i => (low_gain m c (8 * (t.val / 8)) h (k0_pay2 (F := Ideal)) i).trans (congrArg
      (· + ∑ k : Fin 512, lowTerm m c (8 * (t.val / 8)) (i 0) (i 1) (blockCol (8 * (t.val / 8)) k)) (zeros_low_apply i)))
    (fun n h acc i _ _ => low_gain m c n h acc i) (t.val % 8) (by omega) h' (ix2 p r)
  rw [hfold, hsum, zero_add, h1]
  have e : 8 * (t.val / 8) + 7 = t.val := by omega
  have key := sum_run_const (t.val / 8) (fun n d => lowTerm m c n p r d) (fun s hs => by
    funext d; unfold lowTerm; rw [tileRow_run _ s hs])
  rw [e] at key
  exact key

/-- The output block written at a run's last point is the specification at the tile's rows and columns. -/
theorem out_block (c : Dev nD) (t : Fin cfg0.N) (h1 : t.val % 8 = 7) (p q : Fin 1024) :
    (outsAt0 m c t.val t.isLt).1 (ix2 p q)
      = Cert.LoraSpec.rows (xArr m c) (wArr m c) (aArr m c) (bmArr m c) (biasArr m c) (tileRow t.val p) (tileCol t.val q) := by
  rw [out_last m c t h1]
  refine (epilogue_apply (iblk m c 3 t) (outsAt0 m c t.val t.isLt).2.2 (outsAt0 m c t.val t.isLt).2.1 (iblk m c 4 t) p q).trans ?_
  rw [base_total m c t h1 p q, bias_block m c t q]
  unfold Cert.LoraSpec.rows
  refine congrArg (fun z => _ + Ideal.ofBits .f32 0x40000000#32 * z) (Finset.sum_congr rfl fun r _ => ?_)
  rw [low_total m c t h1 p r, bm_block m c t q r]

end Cert.KernelIdeal.Accum

end
-- ==== Proof.KernelValue.lean ====
/-
  The kernel's result as one function of the launch arguments.

  The output window is written back only at the last point of each run of eight, where its block — rows 1024·i…,
  columns 1024·j… of the [16384, 4096] array — holds the specification at those rows and columns (Accum).  The 16 × 4
  blocks tile the array, so after the run every entry (m, n) holds the specification there.  The host then reshapes
  the array to [8, 2048, 4096]: entry (b, s, n) is entry (2048·b + s, n), the row the host's first reshape put
  (b, s) at; the other arrays handed to the kernel are the arguments themselves up to a change of float format.
-/
import proofs.«150471_j58033598104232_2_alg».proof.Proof.Gen.KernelIdeal.Frame
import proofs.«150471_j58033598104232_2_alg».proof.Proof.Accum
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.LoraBlocks

variable (m : (ℓ : Loc nD τ sig) → Buf (Elt Ideal) ℓ) (ρ : Dev nD → PrngReg)

/-- What the output array ends holding: the specification over the flattened rows, of the arrays the region finds. -/
def outArray (c : Dev nD) : Buf (Elt Ideal) ((c : Thread nD τ).loc main_v5) :=
  fun (i : S16384x4096.Idx) =>
    Cert.LoraSpec.rows (xArr m c) (wArr m c) (aArr m c) (bmArr m c) (biasArr m c) (i 0) (i 1)

/-- Entry (p, q) of the block written back at a run's last point is the array's entry at the tile's row and column. -/
theorem flushed_entry (c : Dev nD) (t : Fin cfg0.N) (h1 : t.val % 8 = 7) (j : S1024x1024.Idx) :
    (outsAt0 m c t.val t.isLt).1 j = outArray m c (((cfg0.win 5).blk t).view.emb j) := by
  obtain ⟨-, -, -, -, -, -, -, -, -, -, e0, e1⟩ := block_index t
  obtain ⟨p, q, rfl⟩ : ∃ (p q : Fin 1024), j = ix2 p q := ⟨j 0, j 1, eq_ix2 j⟩
  rw [out_block m c t h1 p q]
  unfold outArray
  have r0 : ((cfg0.win 5).blk t).view.emb (ix2 p q) 0 = tileRow t.val p := Fin.ext (by
    show win0_5.index t (0 : Fin 2) * 1024 + 1 * p.val = t.val / 32 % 16 * 1024 + p.val; rw [e0]; omega)
  have r1 : ((cfg0.win 5).blk t).view.emb (ix2 p q) 1 = tileCol t.val q := Fin.ext (by
    show win0_5.index t (1 : Fin 2) * 1024 + 1 * q.val = t.val / 8 % 4 * 1024 + q.val; rw [e1]; omega)
  rw [r0, r1]

/-- What point t writes back is block t of `outArray`. -/
theorem flushed_eq (c : Dev nD) (t : Fin cfg0.N) (hf : (cfg0.win 5).flush t = true) :
    (dats m 0 c).flushed 5 t = ((cfg0.win 5).blk t).view.read (Elt Ideal) (outArray m c) := by
  have h1 : t.val % 8 = 7 := (flush0_5 t).mp hf
  show (cfg0.win 5).cut (grid0.coords t) ((dats m 0 c).after 5 t) = _
  rw [after0_5]
  funext j
  exact flushed_entry m c t h1 j

/-- An entry of the array is in point t's block iff each coordinate is in the block's range on its axis. -/
theorem mem_blk (t : Fin cfg0.N) (i : S16384x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v5).slice (win0_5.rect t)).set ↔ _
  rw [View.set_slice_whole, Rect.mem_set_unit]
  exact Iff.rfl

/-- Every entry (r, n) lies in the block written back at the last point of the run of tile (r / 1024, n / 1024). -/
theorem covered (i : S16384x4096.Idx) :
    ∃ t : Fin cfg0.N, (cfg0.win 5).flush t = true ∧ i ∈ ((cfg0.win 5).blk t).view.set := by
  have hN : cfg0.N = 512 := N_0
  have hi0 : (i 0).val < 16384 := (i 0).isLt
  have hi1 : (i 1).val < 4096 := (i 1).isLt
  obtain ⟨t, ht⟩ : ∃ t : Fin cfg0.N, t.val = ((i 0).val / 1024 * 4 + (i 1).val / 1024) * 8 + 7 := ⟨⟨_, by omega⟩, rfl⟩
  obtain ⟨-, -, -, -, -, -, -, -, -, -, e0, e1⟩ := block_index t
  refine ⟨t, (flush0_5 t).mpr (by omega), ?_⟩
  rw [mem_blk]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1024 ≤ (i 1).val ∧ (i 1).val < win0_5.index t (1 : Fin 2) * 1024 + 1024
    rw [e1]; omega

/-- The output array after the run. -/
theorem final (c : Dev nD) : (dats m 0 c).arrAt 5 cfg0.N = outArray m c :=
  (dats m 0 c).arrAt_eq_of_cover 5 (outArray m c) (flushed_eq m c) covered

/-- The program's result: the host's reshape of the output array. -/
theorem tail_eq (c : Dev nD) :
    Pipeline.afterTail₀ cfgs (dats m) 0 (V0 m) [hostOps1] c main_v6
      = shapeCast S8x2048x4096 (outArray m c) shapeCasts_S16384x4096_S8x2048x4096 := by
  unfold Pipeline.afterTail₀
  show StableHlo.after hostOps1 _ (Proc.devRef .tc main_v6) = _
  after_results
  rw [(Pipeline.withArrays_arr spec0 launch0.win.arr_inj c _ _ 5).trans (final m c)]
  rfl

/-- The run, read: the result at the reshaped output array, the arguments unchanged. -/
theorem run : θ_run defs (onTc (τ := τ) (main (F := Ideal))) ⟨m, fun _ => 0, ρ⟩ fun r => ∀ c : Dev nD,
      r.2.mem ((c.tc : Thread nD τ).loc main_v6) = shapeCast S8x2048x4096 (outArray m c) shapeCasts_S16384x4096_S8x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

/-- The result at (b, s, n), in terms of the launch arguments: the specification. -/
theorem result_apply (c : Dev nD) (b : Fin 8) (s : Fin 2048) (n : Fin 4096) :
    shapeCast S8x2048x4096 (outArray m c) shapeCasts_S16384x4096_S8x2048x4096 (ix3 b s n)
      = Cert.LoraSpec.result (m ((c : Thread nD τ).loc main_arg0)) (m ((c : Thread nD τ).loc main_arg1))
          (m ((c : Thread nD τ).loc main_arg2)) (m ((c : Thread nD τ).loc main_arg3)) (m ((c : Thread nD τ).loc main_arg4)) b s n := by
  have hr : b.val * 2048 + s.val < 16384 := by omega
  rw [shapeCast_apply (s := S16384x4096) (t := S8x2048x4096) (outArray m c) shapeCasts_S16384x4096_S8x2048x4096 (ix3 b s n)
    (ix2 (⟨b.val * 2048 + s.val, hr⟩ : Fin 16384) n) (by
      rw [Shape.rowMajor_val_two, Shape.rowMajor_val_three]
      show (b.val * 2048 + s.val) * 4096 + n.val = (b.val * 2048 + s.val) * 4096 + n.val
      rfl)]
  have ex : ∀ d : Fin 4096, xArr m c (ix2 (⟨b.val * 2048 + s.val, hr⟩ : Fin 16384) d) = m ((c : Thread nD τ).loc main_arg0) (ix3 b s d) := fun d => by
    refine (congrFun (x_array m c) (ix2 (⟨b.val * 2048 + s.val, hr⟩ : Fin 16384) d)).trans ?_
    show shapeCast S16384x4096 (m ((c : Thread nD τ).loc main_arg0)) shapeCasts_S8x2048x4096_S16384x4096 (ix2 (⟨b.val * 2048 + s.val, hr⟩ : Fin 16384) d) = _
    exact shapeCast_apply (s := S8x2048x4096) (t := S16384x4096) _ _ _ _ (by
      rw [Shape.rowMajor_val_two, Shape.rowMajor_val_three]
      show (b.val * 2048 + s.val) * 4096 + d.val = (b.val * 2048 + s.val) * 4096 + d.val
      rfl)
  have ew : ∀ (k d : Fin 4096), wArr m c (ix2 k d) = m ((c : Thread nD τ).loc main_arg1) (ix2 k d) := fun k d =>
    (congrFun (w_array m c) (ix2 k d)).trans rfl
  have ea : ∀ (k : Fin 16) (d : Fin 4096), aArr m c (ix2 k d) = m ((c : Thread nD τ).loc main_arg3) (ix2 k d) := fun k d =>
    (congrFun (a_array m c) (ix2 k d)).trans rfl
  have eb : biasArr m c (ix2 (0 : Fin 1) n) = m ((c : Thread nD τ).loc main_arg2) (ix1 n) :=
    (congrFun (bias_array m c) (ix2 (0 : Fin 1) n)).trans (shapeCast_a_1a_apply _ _ (0 : Fin 1) n)
  have ebm : ∀ (k : Fin 4096) (r : Fin 16), bmArr m c (ix2 k r) = m ((c : Thread nD τ).loc main_arg4) (ix2 k r) := fun k r =>
    congrFun (V_main_arg4 m c) (ix2 k r)
  show Cert.LoraSpec.rows (xArr m c) (wArr m c) (aArr m c) (bmArr m c) (biasArr m c) (⟨b.val * 2048 + s.val, hr⟩ : Fin 16384) n = _
  unfold Cert.LoraSpec.rows Cert.LoraSpec.result
  simp only [ex, ew, ea, eb, ebm]

end Cert.KernelIdeal.KValue

end
-- ==== Proof.RefSpec.lean ====
/-
  The reference computes the specification: its ten host operations, read one at a time at the entry (b, s, n), are
  the two contractions over the 4096 input features, the bias repeated over batch and sequence, the contraction over the
  16 adapter ranks, the factor 2 and the two additions, in the specification's own order.
-/
import proofs.«150471_j58033598104232_2_alg».proof.Proof.Gen.ReferenceIdeal.Read
import proofs.«150471_j58033598104232_2_alg».proof.Proof.Spec

noncomputable section

namespace Cert.ReferenceIdeal.RefValue

open Idealize.ShloMosaic Idealize.ShloMosaic.ValueIdx Cert.ReferenceIdeal Cert.ReferenceIdeal.Read

/-- The reference's result at (b, s, n) is the specification's. -/
theorem reference_apply (x : (⟨S8x2048x4096, .f32⟩ : BufTy).Contents (Elt Ideal)) (w : (⟨S4096x4096, .f32⟩ : BufTy).Contents (Elt Ideal))
    (bias : (⟨S4096, .f32⟩ : BufTy).Contents (Elt Ideal)) (a : (⟨S16x4096, .f32⟩ : BufTy).Contents (Elt Ideal))
    (bm : (⟨S4096x16, .f32⟩ : BufTy).Contents (Elt Ideal)) (b : Fin 8) (s : Fin 2048) (n : Fin 4096) :
    val_main_v8 (F := Ideal) x w bias a bm (ix3 b s n) = Cert.LoraSpec.result x w bias a bm b s n := by
  have e0l : ∀ k, lidx_main_v0 (ix3 b s n) k = ix3 b s k := fun k => funext fun d => Fin.ext (by
    match d with | ⟨0, _⟩ => rfl | ⟨1, _⟩ => rfl | ⟨2, _⟩ => rfl)
  have e0r : ∀ k, ridx_main_v0 (ix3 b s n) k = ix2 n k := fun k => funext fun d => Fin.ext (by
    match d with | ⟨0, _⟩ => rfl | ⟨1, _⟩ => rfl)
  have e4l : ∀ r k, lidx_main_v4 (lidx_main_v5 (ix3 b s n) r) k = ix3 b s k := fun r k => funext fun d => Fin.ext (by
    match d with | ⟨0, _⟩ => rfl | ⟨1, _⟩ => rfl | ⟨2, _⟩ => rfl)
  have e4r : ∀ r k, ridx_main_v4 (lidx_main_v5 (ix3 b s n) r) k = ix2 r k := fun r k => funext fun d => Fin.ext (by
    match d with | ⟨0, _⟩ => rfl | ⟨1, _⟩ => rfl)
  have e5r : ∀ r, ridx_main_v5 (ix3 b s n) r = ix2 n r := fun r => funext fun d => Fin.ext (by
    match d with | ⟨0, _⟩ => rfl | ⟨1, _⟩ => rfl)
  have eb : idx_main_v1 (idx_main_v2 (ix3 b s n)) = ix1 n := funext fun d => Fin.ext (by
    match d with | ⟨0, _⟩ => rfl)
  rw [val_main_v8_apply, val_main_v3_apply, val_main_v0_apply, val_main_v2_apply, val_main_v1_apply, val_main_v7_apply,
    val_main_v6_apply, val_main_cst_apply, val_main_v5_apply]
  simp only [val_main_v4_apply, e0l, e0r, e4l, e4r, e5r, eb]
  rfl

end Cert.ReferenceIdeal.RefValue

end
-- ==== Proof.lean ====
/-
  A linear layer with a low-rank adapter: out = x·wᵀ + bias + 2·((x·aᵀ)·bmᵀ), over x [8, 2048, 4096], w [4096, 4096],
  bias [4096], a [16, 4096], bm [4096, 16].

  The kernel flattens the rows to [16384, 4096] and tiles the product 16 × 4 × 8: for each tile of 1024 rows and 1024
  output columns it runs along the inner dimension in eight blocks of 512 columns, adding x·wᵀ into one accumulator and
  x·aᵀ into another, and at the eighth block writes (base + bias) + 2·(low·bmᵀ).  The reference contracts all 4096
  input features at once.  On the extended reals every change of float format is the identity and addition is
  commutative and associative without exception, so the eight partial sums are the whole contraction and the two
  programs compute one function, entry by entry; no input need be finite for this, so the precondition is never opened.

  The three frames: the two kernel programs' are the frame certificates of their runs, the reference's is its run with
  the result dropped.  The idealization rewrote no operation, so nothing is owed for it.
-/
import proofs.«150471_j58033598104232_2_alg».proof.Defs
import proofs.«150471_j58033598104232_2_alg».proof.Proof.Gen.Kernel
import proofs.«150471_j58033598104232_2_alg».proof.Proof.Gen.Kernel.Skeleton
import proofs.«150471_j58033598104232_2_alg».proof.Proof.Gen.Kernel.Launch
import proofs.«150471_j58033598104232_2_alg».proof.Proof.Gen.Kernel.Points
import proofs.«150471_j58033598104232_2_alg».proof.Proof.Gen.Kernel.Frame
import proofs.«150471_j58033598104232_2_alg».proof.Proof.Gen.KernelIdeal
import proofs.«150471_j58033598104232_2_alg».proof.Proof.Gen.KernelIdeal.Skeleton
import proofs.«150471_j58033598104232_2_alg».proof.Proof.Gen.KernelIdeal.Launch
import proofs.«150471_j58033598104232_2_alg».proof.Proof.Gen.KernelIdeal.Points
import proofs.«150471_j58033598104232_2_alg».proof.Proof.Gen.KernelIdeal.Frame
import proofs.«150471_j58033598104232_2_alg».proof.Proof.Gen.ReferenceIdeal
import proofs.«150471_j58033598104232_2_alg».proof.Proof.Gen.ReferenceIdeal.Run
import proofs.«150471_j58033598104232_2_alg».proof.Proof.Gen.ReferenceIdeal.Read
import proofs.«150471_j58033598104232_2_alg».proof.Proof.Gen.Pre_finite_inputs
import proofs.«150471_j58033598104232_2_alg».proof.Proof.KernelValue
import proofs.«150471_j58033598104232_2_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the five arguments both idealized programs end with the specification of those
    arguments in their result, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S8x2048x4096 (Cert.KernelIdeal.KValue.outArray m c)
    Cert.KernelIdeal.Gen.shapeCasts_S16384x4096_S8x2048x4096, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  funext i
  obtain ⟨b, s, n, rfl⟩ : ∃ (b : Fin 8) (s : Fin 2048) (n : Fin 4096), i = ix3 b s n := ⟨i 0, i 1, i 2, eq_ix3 i⟩
  rw [Cert.ReferenceIdeal.RefValue.reference_apply]
  exact (Cert.KernelIdeal.KValue.result_apply m c b s n).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
